-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8192x128 .f32) (main_arg1 : FVec F S128x128 .f32) (main_arg2 : FVec F S128x128 .f32) (main_arg3 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8192x128 : Shape := ⟨2, ![8192, 128]⟩
abbrev S128x128 : Shape := ⟨2, ![128, 128]⟩
abbrev S2048x128 : Shape := ⟨2, ![2048, 128]⟩
abbrev S256x128 : Shape := ⟨2, ![256, 128]⟩
abbrev S256x8192 : Shape := ⟨2, ![256, 8192]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S8192x128, .f32⟩
  | .hbm, ⟨8, _⟩ => ⟨S8192x128, .bf16⟩
  | .hbm, ⟨9, _⟩ => ⟨S8192x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S256x128, .f32⟩
  | .local _ .vmem, ⟨9, _⟩ => ⟨S256x128, .f32⟩
  | .local _ .vmem, ⟨10, _⟩ => ⟨S128x128, .f32⟩
  | .local _ .vmem, ⟨11, _⟩ => ⟨S8192x128, .f32⟩
  | .local _ .vmem, ⟨12, _⟩ => ⟨S8192x128, .bf16⟩
  | .local _ .vmem, ⟨13, _⟩ => ⟨S256x128, .f32⟩
  | .local _ .vmem, ⟨14, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S128x128_S128x128_1_0 : S128x128.Transposes [1, 0] S128x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2048x128_S2048x128_0_0 : (Rect.unit (s := S2048x128) ![0, 0] S2048x128.size inb_S2048x128_S2048x128_0_0).PackedRows (EltTy.packing .bf16)
  inb_S256x128_S256x128_0_0 : ∀ a, (![0, 0] : Fin 2 → Nat) a + S256x128.size a ≤ S256x128.size a
  h_S256x128 : 0 < S256x128.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x8192_S256 : S256x8192.Reduces [1] S256
  shapeCasts_S256_S256x1 : S256.ShapeCasts S256x1
  broadcasts_S256x1_S256x8192 : S256x1.Broadcasts S256x8192
  broadcasts_S256x1_S256x128 : S256x1.Broadcasts S256x128
  dot_S2048x128_S128x128_S2048x128_1_0_0_1_n_n_wf : DotDims.WF S2048x128 S128x128 S2048x128 [1] [0] [0] [1] [] []
  dot_S256x128_S128x128_S256x128_1_0_0_1_n_n_wf : DotDims.WF S256x128 S128x128 S256x128 [1] [0] [0] [1] [] []
  dot_S256x128_S8192x128_S256x8192_1_1_0_0_n_n_wf : DotDims.WF S256x128 S8192x128 S256x8192 [1] [1] [0] [0] [] []
  dot_S256x8192_S8192x128_S256x128_1_0_0_1_n_n_wf : DotDims.WF S256x8192 S8192x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .bf16 = 32 ∨ (Rect.block (s := S8192x128) S2048x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S8192x128.size a
  hwx1_0 : ∀ i : grid1.Coords, EltTy.bits .f32 = 32 ∨ (Rect.block (s := S8192x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .f32 = 32 ∨ (Rect.block (s := S8192x128) S8192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .bf16 = 32 ∨ (Rect.block (s := S8192x128) S8192x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S8192x128.size a
  hwx1_4 : ∀ i : grid1.Coords, EltTy.bits .f32 = 32 ∨ (Rect.block (s := S8192x128) S256x128.size (cc1_transform_4 i) (hinb1_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S2048x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S8192x128, .f32⟩
  | .hbm, ⟨6, _⟩ => ⟨S128x128, .f32⟩
  | .hbm, ⟨7, _⟩ => ⟨S8192x128, .f32⟩
  | .hbm, ⟨8, _⟩ => ⟨S128x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  transposes_S128x128_S128x128_1_0 : S128x128.Transposes [1, 0] S128x128
  transposes_S8192x128_S128x8192_1_0 : S8192x128.Transposes [1, 0] S128x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.LibReal.lean ====
import Idealize.ShloMosaic.PureOps.Ideal

/-!
# Extended reals that are real numbers

The extended reals are not a ring: subtraction does not cancel and a factor does not move across a sum at the
infinities. For values that are real numbers everything is as on `ℝ`. This file has the predicate "is a real number", its
closure under the operations a small network uses, and the few identities that hold for such values only: `v - v = 0`,
the inverse square root as the power `-1/2`, and `z - (m + log s) = (z - m) - log s`. It also reads a maximum and a
sum over 128 entries of which only the first two are kept.
-/

noncomputable section

namespace Cert.LibReal

open Idealize.ShloMosaic
open scoped BigOperators

/-- The extended real `v` is a real number. -/
def IsReal (v : EReal) : Prop := ∃ r : ℝ, v = (r : EReal)

theorem isReal_coe (r : ℝ) : IsReal (r : EReal) := ⟨r, rfl⟩
theorem isReal_zero : IsReal 0 := ⟨0, rfl⟩
theorem isReal_one : IsReal 1 := ⟨1, rfl⟩

theorem coe_max (a b : ℝ) : ((max a b : ℝ) : EReal) = max (a : EReal) (b : EReal) :=
  EReal.coe_strictMono.monotone.map_max

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem IsReal.max {a b : EReal} (ha : IsReal a) (hb : IsReal b) : IsReal (max a b) := by
  obtain ⟨x, rfl⟩ := ha; obtain ⟨y, rfl⟩ := hb; exact ⟨Max.max x y, (coe_max x y).symm⟩

theorem IsReal.sum {ι : Type*} (s : Finset ι) (f : ι → EReal) (h : ∀ k ∈ s, IsReal (f k)) : IsReal (∑ k ∈ s, f k) := by
  classical
  induction s using Finset.induction_on with
  | empty => rw [Finset.sum_empty]; exact isReal_zero
  | insert a s ha ih =>
    rw [Finset.sum_insert ha]
    exact (h a (Finset.mem_insert_self a s)).add (ih fun k hk => h k (Finset.mem_insert_of_mem hk))

/-- A real number minus itself is zero (false at the infinities). -/
theorem IsReal.sub_self {a : EReal} (ha : IsReal a) : a - a = 0 := by
  obtain ⟨x, rfl⟩ := ha
  rw [← EReal.coe_sub, _root_.sub_self, EReal.coe_zero]

/-- The exponential of a real number is a real number. -/
theorem IsReal.exp {a : EReal} (ha : IsReal a) : IsReal (Ideal.exp a) := by
  obtain ⟨x, rfl⟩ := ha; exact ⟨Real.exp x, rfl⟩

/-- On a positive real the inverse square root is the power `-1/2`. -/
theorem rsqrt_eq_pow {t : ℝ} (ht : 0 < t) :
    Ideal.rsqrt (t : EReal) = Ideal.pow (t : EReal) ((-1 / 2 : ℝ) : EReal) := by
  show (if t < 0 then ⊥ else if t = 0 then ⊤ else (((Real.sqrt t)⁻¹ : ℝ) : EReal)) = ((Real.rpow t (-1 / 2) : ℝ) : EReal)
  rw [if_neg (not_lt.mpr ht.le), if_neg ht.ne']
  congr 1
  show (Real.sqrt t)⁻¹ = t ^ (-1 / 2 : ℝ)
  rw [Real.sqrt_eq_rpow, show (-1 / 2 : ℝ) = -(1 / 2) by norm_num, Real.rpow_neg ht.le]

/-- The inverse square root of a real number clipped below at one, as the power `-1/2`, with the clip's operands in
    either order. -/
theorem rsqrt_max_one {d : EReal} (hd : IsReal d) :
    Ideal.rsqrt (max d 1) = Ideal.pow (max 1 d) ((-1 / 2 : ℝ) : EReal) := by
  obtain ⟨r, rfl⟩ := hd
  have h1 : max (r : EReal) 1 = ((Max.max r 1 : ℝ) : EReal) := by rw [coe_max, EReal.coe_one]
  rw [max_comm (1 : EReal), h1]
  exact rsqrt_eq_pow (lt_of_lt_of_le one_pos (le_max_right _ _))

/-- A real number clipped below at one, to a real power, is a real number. -/
theorem isReal_pow_max_one {d : EReal} (hd : IsReal d) (y : ℝ) : IsReal (Ideal.pow (max 1 d) (y : EReal)) := by
  obtain ⟨r, rfl⟩ := hd
  have h1 : max 1 (r : EReal) = ((Max.max 1 r : ℝ) : EReal) := by rw [coe_max, EReal.coe_one]
  rw [h1]
  exact ⟨Real.rpow (Max.max 1 r) y, rfl⟩

/-- For real numbers `z`, `m` and a positive real `s`: `z - (m + log s) = (z - m) - log s`. -/
theorem sub_add_log {z m s : EReal} (hz : IsReal z) (hm : IsReal m) (hs : IsReal s) (hpos : 0 < s) :
    z - (m + Ideal.log s) = (z - m) - Ideal.log s := by
  obtain ⟨a, rfl⟩ := hz; obtain ⟨b, rfl⟩ := hm; obtain ⟨c, rfl⟩ := hs
  have hc : 0 < c := EReal.coe_pos.mp hpos
  have hl : Ideal.log (c : EReal) = ((Real.log c : ℝ) : EReal) := by
    show (if c ≤ 0 then ⊥ else ((Real.log c : ℝ) : EReal)) = _
    rw [if_neg (not_le.mpr hc)]
  rw [hl, ← EReal.coe_add, ← EReal.coe_sub, ← EReal.coe_sub, ← EReal.coe_sub]
  congr 1; ring

/-- A sum of exponentials of real numbers over a nonempty index set is positive. -/
theorem sum_exp_pos {ι : Type*} (s : Finset ι) (hs : s.Nonempty) (f : ι → EReal) (h : ∀ k ∈ s, IsReal (f k)) :
    0 < ∑ k ∈ s, Ideal.exp (f k) := by
  classical
  have hr : ∀ k ∈ s, ∃ r : ℝ, f k = (r : EReal) := h
  choose! g hg using hr
  have e : ∑ k ∈ s, Ideal.exp (f k) = ((∑ k ∈ s, Real.exp (g k) : ℝ) : EReal) := by
    have : ∀ (t : Finset ι), ((∑ k ∈ t, Real.exp (g k) : ℝ) : EReal) = ∑ k ∈ t, ((Real.exp (g k) : ℝ) : EReal) := by
      intro t
      induction t using Finset.induction_on with
      | empty => simp
      | insert a t ha ih => rw [Finset.sum_insert ha, Finset.sum_insert ha, EReal.coe_add, ih]
    rw [this]
    exact Finset.sum_congr rfl fun k hk => by rw [hg k hk]; rfl
  rw [e]
  exact EReal.coe_pos.mpr (Finset.sum_pos (fun k _ => Real.exp_pos _) hs)

/-! ## 128 entries of which the first two are kept -/

/-- A maximum from `-∞` over 128 entries, all but the first two replaced by `-∞`: the larger of the first two. -/
theorem fold_max_first_two (g : Fin 128 → EReal) :
    (Finset.univ : Finset (Fin 128)).fold max ⊥ (fun c => if c.val < 2 then g c else ⊥)
      = max (g ⟨0, by norm_num⟩) (g ⟨1, by norm_num⟩) := by
  apply le_antisymm
  · refine (Finset.fold_max_le _).mpr ⟨bot_le, fun c _ => ?_⟩
    by_cases h : c.val < 2
    · rw [if_pos h]
      have h01 : c.val = 0 ∨ c.val = 1 := by omega
      rcases h01 with h0 | h1
      · have : c = ⟨0, by norm_num⟩ := Fin.ext h0
        rw [this]; exact le_max_left _ _
      · have : c = ⟨1, by norm_num⟩ := Fin.ext h1
        rw [this]; exact le_max_right _ _
    · rw [if_neg h]; exact bot_le
  · refine max_le ?_ ?_
    · refine (Finset.le_fold_max _).mpr (Or.inr ⟨⟨0, by norm_num⟩, Finset.mem_univ _, ?_⟩)
      rw [if_pos (by norm_num)]
    · refine (Finset.le_fold_max _).mpr (Or.inr ⟨⟨1, by norm_num⟩, Finset.mem_univ _, ?_⟩)
      rw [if_pos (by norm_num)]

/-- A sum over 128 entries, all but the first two replaced by zero: the sum of the first two. -/
theorem sum_first_two (g : Fin 128 → EReal) :
    ∑ c : Fin 128, (if c.val < 2 then g c else 0) = g ⟨0, by norm_num⟩ + g ⟨1, by norm_num⟩ := by
  rw [Finset.sum_eq_add_of_mem (⟨0, by norm_num⟩ : Fin 128) ⟨1, by norm_num⟩ (Finset.mem_univ _) (Finset.mem_univ _)
    (by intro h; exact absurd (congrArg Fin.val h) (by norm_num))
    (fun c _ hc => if_neg fun h => by
      have h01 : c.val = 0 ∨ c.val = 1 := by omega
      rcases h01 with h0 | h1
      · exact hc.1 (Fin.ext h0)
      · exact hc.2 (Fin.ext h1))]
  rw [if_pos (by norm_num), if_pos (by norm_num)]

end Cert.LibReal

end
-- ==== Proof.LibIdeal.lean ====
import Idealize.ShloMosaic.PureOps.Ideal.Laws
import Idealize.ShloMosaic.Lib.IdealHost

/-!
# Small facts about the exact extended-real reading of float operations

Bit patterns of a few single-precision constants as extended reals; the 0/1 value of a disjunction of two
"not equal" tests; a maximum folded over two entries; a finite sum of real numbers embedded in the extended reals.
-/

noncomputable section

namespace Cert.LibIdeal

open Idealize.ShloMosaic
open scoped BigOperators

/-- The single-precision pattern `0xBF000000` is `-1/2`. -/
theorem ofBits_neg_half_f32 : Ideal.ofBits .f32 0xBF000000#32 = ((-1 / 2 : ℝ) : EReal) := by
  simp [Ideal.ofBits, Ideal.ieee, -EReal.coe_mul]; norm_num

/-- The single-precision pattern `0xFF800000` is `-∞`. -/
theorem ofBits_neg_inf_f32 : Ideal.ofBits .f32 0xFF800000#32 = (⊥ : EReal) := by
  simp [Ideal.ofBits, Ideal.ieee]

/-- Two "not equal to `z`" tests, or-ed and read as a float, give `1` when either holds and `0` otherwise. -/
theorem uitofp_ori_une (a b z : EReal) :
    (FloatOps.uitofp (F := Ideal) .f32 (IntOp.ori (FloatOps.cmpf (F := Ideal) (φ := .f32) .une a z)
      (FloatOps.cmpf (F := Ideal) (φ := .f32) .une b z)) : EReal) = if a ≠ z ∨ b ≠ z then 1 else 0 := by
  show (((IntOp.ori (Ideal.cmp .une a z) (Ideal.cmp .une b z)).toNat : ℝ) : EReal) = _
  unfold Ideal.cmp IntOp.ori
  by_cases ha : a = z <;> by_cases hb : b = z <;> simp [ha, hb]

/-- A maximum folded over two entries from `b`. -/
theorem fold_max_fin2 (b : EReal) (f : Fin 2 → EReal) :
    (Finset.univ : Finset (Fin 2)).fold max b f = max b (max (f 0) (f 1)) := by
  apply le_antisymm
  · refine (Finset.fold_max_le _).mpr ⟨le_max_left _ _, fun k _ => ?_⟩
    fin_cases k
    · exact le_max_of_le_right (le_max_left _ _)
    · exact le_max_of_le_right (le_max_right _ _)
  · refine max_le ((Finset.le_fold_max _).mpr (Or.inl le_rfl)) (max_le ?_ ?_)
    · exact (Finset.le_fold_max _).mpr (Or.inr ⟨0, Finset.mem_univ _, le_rfl⟩)
    · exact (Finset.le_fold_max _).mpr (Or.inr ⟨1, Finset.mem_univ _, le_rfl⟩)

/-- A finite sum of real numbers, embedded in the extended reals, is the sum of the embedded terms. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end Cert.LibIdeal

end
-- ==== Proof.LibSoftmaxShift.lean ====
/-
  A softmax on the extended reals does not depend on its shift. For real logits l and ANY real number c, the quotient
  exp (l k - c) / ∑ j, exp (l j - c) — computed with the exact extended-real exponential and division — is the real
  number exp (l k) / ∑ j, exp (l j): a program that shifts by the row maximum, one that shifts several rows by a common
  maximum and one that does not shift at all compute the same softmax. With it: a maximum folded from minus infinity
  over a nonempty family of real numbers is a real number (so the usual shift is real), the single-precision words of
  1 and of minus infinity, and the product of two one-bit tests read as 0/1 numbers as their conjunction.
-/
import Idealize.ShloMosaic.PureOps.Ideal.Laws
import proofs.«116500_j80023830659530_2_alg».proof.Proof.LibReal
import proofs.«116500_j80023830659530_2_alg».proof.Proof.LibIdeal

noncomputable section

namespace Cert.LibSoftmax

open Idealize.ShloMosaic Cert.LibReal
open scoped BigOperators

/-- The single-precision pattern `0x3F800000` is `1`. -/
theorem ofBits_one : Ideal.ofBits .f32 0x3F800000#32 = (1 : EReal) := by
  simp [Ideal.ofBits, Ideal.ieee, -EReal.coe_mul]; norm_num

/-- The single-precision pattern `0xFF800000` is minus infinity. -/
theorem ofBits_negInf : Ideal.ofBits .f32 0xFF800000#32 = (⊥ : EReal) := by
  simp [Ideal.ofBits, Ideal.ieee]

/-! ## A quotient of exponentials does not depend on the shift -/

/-- For real logits the quotient exp (l k - c) / ∑ exp (l j - c), computed on the extended reals with any real
    shift c, is the real number exp (l k) / ∑ exp (l j). -/
theorem softmax_shift {ι : Type*} (s : Finset ι) (l : ι → ℝ) (c : ℝ) (k : ι) (hk : k ∈ s) :
    Ideal.div (Ideal.exp ((l k : EReal) - (c : EReal))) (∑ j ∈ s, Ideal.exp ((l j : EReal) - (c : EReal)))
      = ((Real.exp (l k) / ∑ j ∈ s, Real.exp (l j) : ℝ) : EReal) := by
  have hs : ∑ j ∈ s, Ideal.exp ((l j : EReal) - (c : EReal)) = ((∑ j ∈ s, Real.exp (l j - c) : ℝ) : EReal) := by
    rw [Cert.LibIdeal.coe_sum]
    refine Finset.sum_congr rfl fun j _ => ?_
    rw [← EReal.coe_sub]; rfl
  have hpos : 0 < ∑ j ∈ s, Real.exp (l j - c) := Finset.sum_pos (fun j _ => Real.exp_pos _) ⟨k, hk⟩
  have hpos' : 0 < ∑ j ∈ s, Real.exp (l j) := Finset.sum_pos (fun j _ => Real.exp_pos _) ⟨k, hk⟩
  rw [hs, ← EReal.coe_sub, Ideal.exp_coe, Ideal.div_coe hpos.ne', ← EReal.coe_mul]
  congr 1
  have e : ∑ j ∈ s, Real.exp (l j - c) = (∑ j ∈ s, Real.exp (l j)) * Real.exp (-c) := by
    rw [Finset.sum_mul]
    refine Finset.sum_congr rfl fun j _ => ?_
    rw [← Real.exp_add, sub_eq_add_neg]
  rw [e, sub_eq_add_neg, Real.exp_add]
  have h1 : Real.exp (-c) ≠ 0 := (Real.exp_pos _).ne'
  field_simp

/-- A maximum folded from minus infinity over a nonempty family of real numbers is a real number. -/
theorem isReal_fold_max {ι : Type*} (s : Finset ι) (hs : s.Nonempty) (l : ι → EReal) (h : ∀ j ∈ s, IsReal (l j)) :
    IsReal (s.fold max ⊥ l) := by
  classical
  induction hs using Finset.Nonempty.cons_induction with
  | singleton a =>
    rw [Finset.fold_singleton, max_bot_right]
    exact h a (Finset.mem_singleton_self a)
  | cons a s ha hs ih =>
    rw [Finset.fold_cons]
    exact (h a (Finset.mem_cons_self a s)).max (ih fun j hj => h j (Finset.mem_cons_of_mem hj))

/-- The product of two one-bit tests read as 0/1 numbers is their conjunction read as a number. -/
theorem bits_mul (b₁ b₂ : BitVec 1) :
    ((((b₁.setWidth 32).toInt : ℝ) : EReal)) * ((((b₂.setWidth 32).toInt : ℝ) : EReal))
      = (((IntOp.andi b₁ b₂).toNat : ℝ) : EReal) := by
  rcases BitVec.eq_zero_or_eq_one b₁ with rfl | rfl <;> rcases BitVec.eq_zero_or_eq_one b₂ with rfl | rfl <;>
    simp [IntOp.andi]

end Cert.LibSoftmax

end
-- ==== Proof.AttentionSpec.lean ====
/-
  Single-head attention without scaling, as one function of the four argument arrays, index by index, on the extended
  reals, in the two arrangements the two programs compute.

  From an input x of shape [8192, 128] and three weight matrices of shape [128, 128] (each stored [out, in]):
    the projections   Q = x · Wqᵀ,  K = x · Wkᵀ,  V = x · Wvᵀ          (proj: row i, column a is ∑ₖ x(i,k) · w(a,k));
    the scores        S(i,j) = ∑ₐ Q(i,a) · K(j,a);
    the row maximum   M(i) = max over j of S(i,j), folded from minus infinity;
    the weights       P(i,j) = exp (S(i,j) − M(i)),  and their row sums  L(i) = ∑ⱼ P(i,j).
  One program forms ∑ⱼ P(i,j) · V(j,d) and divides the sum by L(i); the other divides every weight by L(i) first and
  then sums (P(i,j) / L(i)) · V(j,d). On the extended reals a divisor does not move across a sum in general: it does
  when every term is a real number and the divisor is a nonzero real. When every argument entry is real, so is every
  projection, score and row maximum (a maximum over a nonempty row), every weight is the exponential of a real, and L(i)
  is a sum of 8192 positive reals: so the two arrangements are one function.
-/
import Idealize.ShloMosaic.PureOps.Ideal
import Idealize.ShloMosaic.Lib.ValueIdx
import proofs.«116500_j80023830659530_2_alg».proof.Proof.LibReal
import proofs.«116500_j80023830659530_2_alg».proof.Proof.LibIdeal
import proofs.«116500_j80023830659530_2_alg».proof.Proof.LibSoftmaxShift

noncomputable section

open scoped BigOperators

namespace Cert.Attention

open Idealize.ShloMosaic Idealize.ShloMosaic.ValueIdx Cert.LibReal

/-- The shape of the input and of the result: 8192 rows of 128 features. -/
abbrev SX : Shape := ⟨2, ![8192, 128]⟩
/-- The shape of a weight matrix, stored [out, in]. -/
abbrev SW : Shape := ⟨2, ![128, 128]⟩

/-- A linear layer without bias: row `i` of `x` against row `a` of the weight matrix (that is, `x · wᵀ`). -/
def proj (x : SX.Idx → EReal) (w : SW.Idx → EReal) (i : Fin 8192) (a : Fin 128) : EReal :=
  ∑ k : Fin 128, x (ix2 i k) * w (ix2 a k)

/-- The unscaled score of query row `i` against key row `j`. -/
def score (x : SX.Idx → EReal) (wq wk : SW.Idx → EReal) (i j : Fin 8192) : EReal :=
  ∑ a : Fin 128, proj x wq i a * proj x wk j a

/-- The largest score of query row `i`, folded from minus infinity. -/
def rowMax (x : SX.Idx → EReal) (wq wk : SW.Idx → EReal) (i : Fin 8192) : EReal :=
  (Finset.univ : Finset (Fin 8192)).fold max ⊥ (fun j => score x wq wk i j)

/-- The unnormalised softmax weight of key `j` for query `i`. -/
def weight (x : SX.Idx → EReal) (wq wk : SW.Idx → EReal) (i j : Fin 8192) : EReal :=
  Ideal.exp (score x wq wk i j - rowMax x wq wk i)

/-- The normaliser of query row `i`: the sum of its weights. -/
def denom (x : SX.Idx → EReal) (wq wk : SW.Idx → EReal) (i : Fin 8192) : EReal :=
  ∑ j : Fin 8192, weight x wq wk i j

/-- Weighted sum of the value rows first, one division by the normaliser after. -/
def sumThenDivide (x : SX.Idx → EReal) (wq wk wv : SW.Idx → EReal) : SX.Idx → EReal := fun i =>
  Ideal.div (∑ j : Fin 8192, weight x wq wk (i 0) j * proj x wv j (i 1)) (denom x wq wk (i 0))

/-- Every weight divided by the normaliser first, the weighted sum of the value rows after. -/
def divideThenSum (x : SX.Idx → EReal) (wq wk wv : SW.Idx → EReal) : SX.Idx → EReal := fun i =>
  ∑ j : Fin 8192, Ideal.div (weight x wq wk (i 0) j) (denom x wq wk (i 0)) * proj x wv j (i 1)

/-! ## A nonzero real divisor moves across a sum of real terms -/

/-- For real `p j`, `v j` and a nonzero real `l`: `(∑ p j · v j) / l = ∑ (p j / l) · v j` with the exact division of the
    extended reals. -/
theorem div_sum_eq_sum_div {ι : Type*} (s : Finset ι) (p v : ι → EReal) (l : EReal)
    (hp : ∀ j ∈ s, IsReal (p j)) (hv : ∀ j ∈ s, IsReal (v j)) (hl : IsReal l) (hl0 : l ≠ 0) :
    Ideal.div (∑ j ∈ s, p j * v j) l = ∑ j ∈ s, Ideal.div (p j) l * v j := by
  classical
  choose! pr hpr using hp
  choose! vr hvr using hv
  obtain ⟨lr, rfl⟩ := hl
  have hlr : lr ≠ 0 := fun h => hl0 (by rw [h, EReal.coe_zero])
  have e1 : ∑ j ∈ s, p j * v j = ((∑ j ∈ s, pr j * vr j : ℝ) : EReal) := by
    rw [Cert.LibIdeal.coe_sum]
    exact Finset.sum_congr rfl fun j hj => by rw [hpr j hj, hvr j hj, EReal.coe_mul]
  have e2 : ∑ j ∈ s, Ideal.div (p j) (lr : EReal) * v j = ((∑ j ∈ s, pr j * (1 / lr) * vr j : ℝ) : EReal) := by
    rw [Cert.LibIdeal.coe_sum]
    exact Finset.sum_congr rfl fun j hj => by
      rw [Ideal.div_coe hlr, hpr j hj, hvr j hj, EReal.coe_mul, EReal.coe_mul]
  rw [Ideal.div_coe hlr, e1, e2, ← EReal.coe_mul, Finset.sum_mul]
  exact congrArg _ (Finset.sum_congr rfl fun j _ => by ring)

/-! ## With real arguments every intermediate is real, and the normaliser is positive -/

section Real
variable {x : SX.Idx → EReal} {wq wk wv : SW.Idx → EReal}

theorem isReal_proj {w : SW.Idx → EReal} (hx : ∀ i, IsReal (x i)) (hw : ∀ i, IsReal (w i)) (i : Fin 8192) (a : Fin 128) :
    IsReal (proj x w i a) :=
  IsReal.sum _ _ fun k _ => (hx _).mul (hw _)

theorem isReal_score (hx : ∀ i, IsReal (x i)) (hq : ∀ i, IsReal (wq i)) (hk : ∀ i, IsReal (wk i)) (i j : Fin 8192) :
    IsReal (score x wq wk i j) :=
  IsReal.sum _ _ fun a _ => (isReal_proj hx hq i a).mul (isReal_proj hx hk j a)

theorem isReal_rowMax (hx : ∀ i, IsReal (x i)) (hq : ∀ i, IsReal (wq i)) (hk : ∀ i, IsReal (wk i)) (i : Fin 8192) :
    IsReal (rowMax x wq wk i) :=
  Cert.LibSoftmax.isReal_fold_max _ ⟨(0 : Fin 8192), Finset.mem_univ _⟩ _ fun j _ => isReal_score hx hq hk i j

theorem isReal_weight (hx : ∀ i, IsReal (x i)) (hq : ∀ i, IsReal (wq i)) (hk : ∀ i, IsReal (wk i)) (i j : Fin 8192) :
    IsReal (weight x wq wk i j) :=
  ((isReal_score hx hq hk i j).sub (isReal_rowMax hx hq hk i)).exp

theorem isReal_denom (hx : ∀ i, IsReal (x i)) (hq : ∀ i, IsReal (wq i)) (hk : ∀ i, IsReal (wk i)) (i : Fin 8192) :
    IsReal (denom x wq wk i) :=
  IsReal.sum _ _ fun j _ => isReal_weight hx hq hk i j

theorem denom_pos (hx : ∀ i, IsReal (x i)) (hq : ∀ i, IsReal (wq i)) (hk : ∀ i, IsReal (wk i)) (i : Fin 8192) :
    0 < denom x wq wk i :=
  sum_exp_pos _ ⟨(0 : Fin 8192), Finset.mem_univ _⟩ (fun j => score x wq wk i j - rowMax x wq wk i)
    fun j _ => (isReal_score hx hq hk i j).sub (isReal_rowMax hx hq hk i)

/-- THE LAW: with real arguments, dividing the weighted sum once and dividing every weight first give one array. -/
theorem sumThenDivide_eq_divideThenSum (hx : ∀ i, IsReal (x i)) (hq : ∀ i, IsReal (wq i)) (hk : ∀ i, IsReal (wk i))
    (hv : ∀ i, IsReal (wv i)) : sumThenDivide x wq wk wv = divideThenSum x wq wk wv :=
  funext fun i =>
    div_sum_eq_sum_div _ _ _ _ (fun j _ => isReal_weight hx hq hk (i 0) j) (fun j _ => isReal_proj hx hv j (i 1))
      (isReal_denom hx hq hk (i 0)) (denom_pos hx hq hk (i 0)).ne'

end Real

end Cert.Attention

end
-- ==== Proof.Finite.lean ====
/-
  What the precondition says: every entry of every argument array is a real number.

  The precondition is the conjunction, over the four arguments, of "all entries satisfy |v| < +infinity". On the
  extended reals |v| is max v (−v), which is +infinity exactly at the two infinities: so an entry passing the test is
  a real number. A conjunction of all-tests that comes out true had every test true at every entry.
-/
import proofs.«116500_j80023830659530_2_alg».proof.Pre_finite_inputs
import proofs.«116500_j80023830659530_2_alg».proof.Proof.Gen.Pre_finite_inputs
import proofs.«116500_j80023830659530_2_alg».proof.Proof.LibReal
import Idealize.ShloMosaic.Lib.ReduceAll
import Idealize.ShloMosaic.Lib.ValueIdx

noncomputable section

namespace Cert.Finite

open Idealize.ShloMosaic Idealize.ShloMosaic.ValueIdx Cert.LibReal Cert.Pre_finite_inputs

instance : Subsingleton S_.Idx := ⟨fun a b => funext fun d => d.elim0⟩

/-- An extended real whose absolute value is below +infinity is a real number. -/
theorem isReal_of_abs_lt_inf (v : EReal)
    (h : Ideal.cmp .olt (max v (-v)) (Ideal.ofBits .f32 0x7F800000#32) = 1#1) : IsReal v := by
  have hinf : Ideal.ofBits .f32 0x7F800000#32 = (⊤ : EReal) := by simp [Ideal.ofBits, Ideal.ieee]
  rw [hinf] at h
  have hlt : max v (-v) < ⊤ := by
    by_contra hn
    simp [Ideal.cmp, hn] at h
  induction v using EReal.rec with
  | bot => simp at hlt
  | coe r => exact ⟨r, rfl⟩
  | top => simp at hlt

/-- From the precondition: every entry of each of the four argument arrays is a real number. -/
theorem real_of_pre (a0 : FVec Ideal S8192x128 .f32) (a1 a2 a3 : FVec Ideal S128x128 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ix0
  dsimp only [Cert.Pre_finite_inputs.fn, Cert.Pre_finite_inputs.fn_part1] at h0
  have h0' : IntOp.andi (IntOp.andi (IntOp.andi _ _) _) _ = 1#1 := h0
  obtain ⟨h012, h3⟩ := IntOp.andi_eq_one.mp h0'
  obtain ⟨h01, h2⟩ := IntOp.andi_eq_one.mp h012
  obtain ⟨hh0, hh1⟩ := IntOp.andi_eq_one.mp h01
  exact ⟨fun i => isReal_of_abs_lt_inf (a0 i) (Host.reduce_andi_all _ _ _ _ ix0 hh0 i),
    fun i => isReal_of_abs_lt_inf (a1 i) (Host.reduce_andi_all _ _ _ _ ix0 hh1 i),
    fun i => isReal_of_abs_lt_inf (a2 i) (Host.reduce_andi_all _ _ _ _ ix0 h2 i),
    fun i => isReal_of_abs_lt_inf (a3 i) (Host.reduce_andi_all _ _ _ _ ix0 h3 i)⟩

end Cert.Finite

end
-- ==== Proof.KernelRun.lean ====
/-
  The two-kernel program's run with its RESULT named.

  The program is three segments: the three transposes of the weight matrices on the host, the projection kernel, the
  attention kernel. Every weakly fair execution terminates without fault, and the final memory holds, in every buffer
  that outlives the kernels, the contents obtained by folding the segments over the launch memory: the host operations'
  results, then each kernel's output arrays at what its write-backs leave. Read at the result buffer, that is the
  attention kernel's output array after its last grid point; read at an argument, the launch contents.
-/
import proofs.«116500_j80023830659530_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    (the fold of the three segments over the launch memory), and the four arguments end as launched. -/
theorem run_result : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.LibZeroAccDots.lean ====
/-
  Two matrix products into a zero accumulator, read at an index as plain sums, for operands of any float formats.

  At the ideal values a matrix product unit adds, to the accumulator's entry, the sum over the contraction's index set of
  the products of the operands' entries; the operands' float formats play no part, every float being an extended real.
  When the accumulator is the zero splat there is no accumulator term, and for the two common two-dimensional shapes the
  contraction's index set is one axis of extent K:

    rows by columns,  [A, K] × [K, B] → [A, B]  (left axis 1 against right axis 0):  the entry at (p, q) is
      ∑ k < K, x (p, k) · y (k, q);
    rows by rows,     [A, K] × [B, K] → [A, B]  (left axis 1 against right axis 1, the product with the transposed right
      matrix, no transpose formed):                                                   the entry at (p, q) is
      ∑ k < K, x (p, k) · y (q, k).

  Both are stated for ANY record with those dimension numbers, any contraction precision, and any pair of operand formats
  (a product of two bf16 matrices into an f32 accumulator is the usual case).
-/
import proofs.«116500_j80023830659530_2_alg».proof.Proof.LibPlainDot
import proofs.«116500_j80023830659530_2_alg».proof.Proof.LibDotRowRow
import Idealize.ShloMosaic.PureOps.Ideal.Laws
import Idealize.ShloMosaic.Lib.ValueIdx

open scoped BigOperators

namespace Cert.ZeroAccDots

open Idealize.ShloMosaic Idealize.ShloMosaic.ValueIdx

/-- Rows by columns into the zero splat, at `(p, q)`: the plain sum along row `p` of the left operand and column `q`
    of the right. -/
theorem rows_columns {A K B : Nat} {φ₁ φ₂ : FTy} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K) (prec : Option ContractPrecision)
    (x : FVec Ideal ⟨2, ![A, K]⟩ φ₁) (y : FVec Ideal ⟨2, ![K, B]⟩ φ₂) (p : Fin A) (q : Fin B) :
    FloatOps.matmul d prec x y (constant (F := Ideal) ⟨2, ![A, B]⟩ .f32 0x00000000#32) (ix2 p q)
      = ∑ k : Fin K, x (ix2 p k) * y (ix2 k q) :=
  (Ideal.matmul_constant_zero_apply d prec x y (ix2 p q)).trans
    (Cert.PlainDot.sum_eq d hlb hln hlc hrb hrn hrc hr hs x y p q)

/-- Rows by rows into the zero splat, at `(p, q)`: the plain sum along row `p` of the left operand and row `q` of the
    right. -/
theorem rows_rows {A K B : Nat} {φ₁ φ₂ : FTy} (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K) (prec : Option ContractPrecision)
    (x : FVec Ideal ⟨2, ![A, K]⟩ φ₁) (y : FVec Ideal ⟨2, ![B, K]⟩ φ₂) (p : Fin A) (q : Fin B) :
    FloatOps.matmul d prec x y (constant (F := Ideal) ⟨2, ![A, B]⟩ .f32 0x00000000#32) (ix2 p q)
      = ∑ k : Fin K, x (ix2 p k) * y (ix2 q k) :=
  (Ideal.matmul_constant_zero_apply d prec x y (ix2 p q)).trans
    (Cert.RowRowDot.sum_eq d hlb hln hlc hrb hrn hrc hr hs x y p q)

end Cert.ZeroAccDots
-- ==== Proof.ProjectionBlock.lean ====
/-
  One grid point of the first kernel: a block of 2048 rows of the input against a whole (already transposed) weight
  matrix. Both of its stores hold a matrix product into a zero accumulator, so at an entry (p, q) each is the plain sum
  over the 128 features k of x(p, k) · w(k, q). The roundings of the operands to bf16 on the way in, and of the value
  projection on the way out, are the identity on exact values; the shape cast of the weight tile to its own shape changes
  nothing.
-/
import proofs.«116500_j80023830659530_2_alg».proof.Proof.Gen.KernelIdeal.Skeleton
import proofs.«116500_j80023830659530_2_alg».proof.Proof.LibZeroAccDots
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.ValueIdx

/-- A block of the KEY projection at (p, q): row p of the input block against column q of the transposed weights. -/
theorem keyBlock_apply (x : Vec Ideal S2048x128 .f32) (w : Vec Ideal S128x128 .f32) (p : Fin 2048) (q : Fin 128) :
    k0_pay2 (F := Ideal) x w (ix2 p q) = ∑ k : Fin 128, x (ix2 p k) * w (ix2 k q) := by
  unfold k0_pay2 k0_pay1
  simp only [shapeCast_self]
  exact Cert.ZeroAccDots.rows_columns dot_S2048x128_S128x128_S2048x128_1_0_0_1_n_n rfl rfl rfl rfl rfl rfl rfl rfl none _ _ p q

/-- A block of the VALUE projection at (p, q): the same product with the other weight matrix (its final rounding to
    bf16 is the identity on exact values). -/
theorem valueBlock_apply (x : Vec Ideal S2048x128 .f32) (w : Vec Ideal S128x128 .f32) (p : Fin 2048) (q : Fin 128) :
    k0_pay3 (F := Ideal) x w (ix2 p q) = ∑ k : Fin 128, x (ix2 p k) * w (ix2 k q) := by
  unfold k0_pay3 k0_pay1
  simp only [shapeCast_self]
  exact Cert.ZeroAccDots.rows_columns dot_S2048x128_S128x128_S2048x128_1_0_0_1_n_n rfl rfl rfl rfl rfl rfl rfl rfl none _ _ p q

end Cert.KernelIdeal.Blocks

end
-- ==== Proof.ProjectionArrays.lean ====
/-
  The first kernel over its whole grid: the key array and the value array it leaves.

  The grid has 4 points; point t reads rows 2048·t … 2048·t + 2047 of the input (all 128 features) and the two whole
  weight tiles, and writes back the same rows of the key array and of the value array. So whatever the input array X
  and the (transposed) weight arrays W hold when the kernel starts, each output array ends as the product X · W, entry
  (i, q) = ∑ₖ X(i, k) · W(k, q): every point's block is the block of that one array, and the 4 blocks of 2048 rows tile
  the 8192 rows (row i lies in block i / 2048).
-/
import proofs.«116500_j80023830659530_2_alg».proof.Proof.Gen.KernelIdeal.Frame
import proofs.«116500_j80023830659530_2_alg».proof.Proof.ProjectionBlock
import Idealize.ShloMosaic.Lib.Pipeline.Value
import Idealize.ShloMosaic.Lib.ValueIdx

set_option maxRecDepth 16384

noncomputable section

open scoped BigOperators

namespace Cert.KernelIdeal.Arrays

open Cert.KernelIdeal Cert.KernelIdeal.Gen Cert.KernelIdeal.Blocks Idealize.ShloMosaic Idealize.ShloMosaic.ValueIdx
open Idealize.ShloMosaic.TcCoe Idealize.SL.Sem

/-- The product of an [8192, 128] array with a [128, 128] matrix, entry by entry. -/
def rowsByColumns (X : S8192x128.Idx → EReal) (W : S128x128.Idx → EReal) : S8192x128.Idx → EReal := fun i =>
  ∑ k : Fin 128, X (ix2 (i 0) k) * W (ix2 k (i 1))

theorem zeroOffsets : (![0, 0] : Fin 2 → Nat) = fun _ => 0 := funext fun a => by fin_cases a <;> rfl

/-- Where each window's block sits at grid point t: the input and both outputs at block row t, the weights whole. -/
theorem blockIndices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- Row p of the input block at point t is row 2048·t + p of the input array. -/
theorem inputBlock0_apply (c : Dev nD) (t : Fin cfg0.N) (p : Fin 2048) (k : Fin 128) (i : S8192x128.Idx)
    (hi : (i 0).val = t.val * 2048 + p.val) :
    iblk0 V c 0 t (ix2 p k) = V c main_arg0 (ix2 (i 0) k) := by
  obtain ⟨e0, e1, -⟩ := blockIndices0 t
  show V c main_arg0 (((cfg0.win 0).blk t).view.emb (ix2 p k)) = V c main_arg0 (ix2 (i 0) k)
  refine congrArg (V c main_arg0) (funext fun a => Fin.ext ?_)
  match a with
  | ⟨0, _⟩ => show win0_0.index t (0 : Fin 2) * 2048 + 1 * p.val = (i 0).val; omega
  | ⟨1, _⟩ => show win0_0.index t (1 : Fin 2) * 128 + 1 * k.val = k.val; omega

/-- The key weights' block is the whole (transposed) weight array at every point. -/
theorem keyWeightBlock0_apply (c : Dev nD) (t : Fin cfg0.N) (k q : Fin 128) :
    iblk0 V c 1 t (ix2 k q) = V c main_v1 (ix2 k q) := by
  obtain ⟨-, -, e0, e1, -⟩ := blockIndices0 t
  show V c main_v1 (((cfg0.win 1).blk t).view.emb (ix2 k q)) = V c main_v1 (ix2 k q)
  refine congrArg (V c main_v1) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- The value weights' block is the whole (transposed) weight array at every point. -/
theorem valueWeightBlock0_apply (c : Dev nD) (t : Fin cfg0.N) (k q : Fin 128) :
    iblk0 V c 2 t (ix2 k q) = V c main_v2 (ix2 k q) := by
  obtain ⟨-, -, -, -, e0, e1, -⟩ := blockIndices0 t
  show V c main_v2 (((cfg0.win 2).blk t).view.emb (ix2 k q)) = V c main_v2 (ix2 k q)
  refine congrArg (V c main_v2) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-! ## The key array -/

/-- WHAT POINT t WRITES BACK to the key array is block t of X · Wk. -/
theorem keyFlushed (c : Dev nD) (t : Fin cfg0.N) :
    (dat0 V c).flushed 3 t = ((cfg0.win 3).blk t).view.read (Elt Ideal) (rowsByColumns (V c main_arg0) (V c main_v1)) := by
  show (cfg0.win 3).cut (grid0.coords t) ((dat0 V c).after 3 t) = _
  rw [after0_3]
  unfold out0_3
  rw [View.canon_unit_zero zeroOffsets]
  simp only [View.ld_unit_zero (S := S2048x128) zeroOffsets, View.ld_unit_zero (S := S128x128) zeroOffsets]
  funext j
  obtain ⟨p, q, rfl⟩ : ∃ (p : Fin 2048) (q : Fin 128), j = ix2 p q := ⟨j 0, j 1, eq_ix2 j⟩
  refine (keyBlock_apply (iblk0 V c 0 t) (iblk0 V c 1 t) p q).trans ?_
  obtain ⟨-, -, -, -, -, -, e0, e1, -⟩ := blockIndices0 t
  show _ = rowsByColumns (V c main_arg0) (V c main_v1) (((cfg0.win 3).blk t).view.emb (ix2 p q))
  unfold rowsByColumns
  have h0 : ((((cfg0.win 3).blk t).view.emb (ix2 p q)) 0).val = t.val * 2048 + p.val := by
    show win0_3.index t (0 : Fin 2) * 2048 + 1 * p.val = _; omega
  have h1 : (((cfg0.win 3).blk t).view.emb (ix2 p q)) 1 = q := Fin.ext (by
    show win0_3.index t (1 : Fin 2) * 128 + 1 * q.val = q.val; omega)
  refine Finset.sum_congr rfl fun k _ => ?_
  rw [inputBlock0_apply V c t p k _ h0, keyWeightBlock0_apply V c t k q, h1]

/-- An index of the key array is in point t's block iff each coordinate is in the block's range on its axis. -/
theorem mem_keyBlock (t : Fin cfg0.N) (i : S8192x128.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v3_0).slice (win0_3.rect t)).set ↔ _
  rw [View.set_slice_whole, Rect.mem_set_unit]
  exact Iff.rfl

/-- Every entry of the key array is written back by some point: row i by point i / 2048. -/
theorem keyCover (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  have hN : grid0.N = 4 := N_0
  refine ⟨⟨(i 0).val / 2048, by show _ < grid0.N; omega⟩, flush0_3 _, ?_⟩
  rw [mem_keyBlock]
  obtain ⟨-, -, -, -, -, -, e0, e1, -⟩ := blockIndices0 ⟨(i 0).val / 2048, by show _ < grid0.N; omega⟩
  intro a
  match a with
  | ⟨0, _⟩ =>
    show win0_3.index _ (0 : Fin 2) * 2048 ≤ (i 0).val ∧ (i 0).val < win0_3.index _ (0 : Fin 2) * 2048 + 2048
    rw [e0]; show (i 0).val / 2048 * 2048 ≤ _ ∧ _ < (i 0).val / 2048 * 2048 + 2048; omega
  | ⟨1, _⟩ =>
    show win0_3.index _ (1 : Fin 2) * 128 ≤ (i 1).val ∧ (i 1).val < win0_3.index _ (1 : Fin 2) * 128 + 128
    rw [e1]; omega

/-- THE KEY ARRAY after the kernel: X · Wk, whatever X and Wk are when it starts. -/
theorem keyArray (c : Dev nD) : (dat0 V c).arrAt 3 cfg0.N = rowsByColumns (V c main_arg0) (V c main_v1) :=
  (dat0 V c).arrAt_eq_of_cover 3 (rowsByColumns (V c main_arg0) (V c main_v1)) (fun t _ => keyFlushed V c t) keyCover

/-! ## The value array -/

/-- WHAT POINT t WRITES BACK to the value array is block t of X · Wv. -/
theorem valueFlushed (c : Dev nD) (t : Fin cfg0.N) :
    (dat0 V c).flushed 4 t = ((cfg0.win 4).blk t).view.read (Elt Ideal) (rowsByColumns (V c main_arg0) (V c main_v2)) := by
  show (cfg0.win 4).cut (grid0.coords t) ((dat0 V c).after 4 t) = _
  rw [after0_4]
  unfold out0_4
  rw [View.canon_unit_zero zeroOffsets]
  simp only [View.ld_unit_zero (S := S2048x128) zeroOffsets, View.ld_unit_zero (S := S128x128) zeroOffsets]
  funext j
  obtain ⟨p, q, rfl⟩ : ∃ (p : Fin 2048) (q : Fin 128), j = ix2 p q := ⟨j 0, j 1, eq_ix2 j⟩
  refine (valueBlock_apply (iblk0 V c 0 t) (iblk0 V c 2 t) p q).trans ?_
  obtain ⟨-, -, -, -, -, -, -, -, e0, e1⟩ := blockIndices0 t
  show _ = rowsByColumns (V c main_arg0) (V c main_v2) (((cfg0.win 4).blk t).view.emb (ix2 p q))
  unfold rowsByColumns
  have h0 : ((((cfg0.win 4).blk t).view.emb (ix2 p q)) 0).val = t.val * 2048 + p.val := by
    show win0_4.index t (0 : Fin 2) * 2048 + 1 * p.val = _; omega
  have h1 : (((cfg0.win 4).blk t).view.emb (ix2 p q)) 1 = q := Fin.ext (by
    show win0_4.index t (1 : Fin 2) * 128 + 1 * q.val = q.val; omega)
  refine Finset.sum_congr rfl fun k _ => ?_
  rw [inputBlock0_apply V c t p k _ h0, valueWeightBlock0_apply V c t k q, h1]

/-- An index of the value array is in point t's block iff each coordinate is in the block's range on its axis. -/
theorem mem_valueBlock (t : Fin cfg0.N) (i : S8192x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v3_1).slice (win0_4.rect t)).set ↔ _
  rw [View.set_slice_whole, Rect.mem_set_unit]
  exact Iff.rfl

/-- Every entry of the value array is written back by some point: row i by point i / 2048. -/
theorem valueCover (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : grid0.N = 4 := N_0
  refine ⟨⟨(i 0).val / 2048, by show _ < grid0.N; omega⟩, flush0_4 _, ?_⟩
  rw [mem_valueBlock]
  obtain ⟨-, -, -, -, -, -, -, -, e0, e1⟩ := blockIndices0 ⟨(i 0).val / 2048, by show _ < grid0.N; omega⟩
  intro a
  match a with
  | ⟨0, _⟩ =>
    show win0_4.index _ (0 : Fin 2) * 2048 ≤ (i 0).val ∧ (i 0).val < win0_4.index _ (0 : Fin 2) * 2048 + 2048
    rw [e0]; show (i 0).val / 2048 * 2048 ≤ _ ∧ _ < (i 0).val / 2048 * 2048 + 2048; omega
  | ⟨1, _⟩ =>
    show win0_4.index _ (1 : Fin 2) * 128 ≤ (i 1).val ∧ (i 1).val < win0_4.index _ (1 : Fin 2) * 128 + 128
    rw [e1]; omega

/-- THE VALUE ARRAY after the kernel: X · Wv, whatever X and Wv are when it starts. -/
theorem valueArray (c : Dev nD) : (dat0 V c).arrAt 4 cfg0.N = rowsByColumns (V c main_arg0) (V c main_v2) :=
  (dat0 V c).arrAt_eq_of_cover 4 (rowsByColumns (V c main_arg0) (V c main_v2)) (fun t _ => valueFlushed V c t) valueCover

end Cert.KernelIdeal.Arrays

end
-- ==== Proof.LibIx2.lean ====
/-
  Rank-2 operations read at an index given by coordinates: a matrix product with one contracted axis into the zero
  tile, a lane reduction (sum or maximum) of a matrix, and the keepdims column layouts [a] → [a,1] and
  [a,1] → [a,b]. Each is the library's read-at-an-index lemma with both indices written by coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibIx2

open Idealize.ShloMosaic Idealize.ShloMosaic.ValueIdx

/-! ## The keepdims column layouts -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A lane reduction of a matrix -/

/-- The source index over row `p` with lane `c` inserted is `(p, c)`. -/
theorem lift_ix1 {a b : ℕ} (h : (⟨2, ![a, b]⟩ : Shape).Reduces [1] ⟨1, ![a]⟩) (p : Fin a) (c : Fin b) :
    h.lift (ix1 p) c = ix2 p c := by
  funext ax
  match ax with
  | ⟨0, _⟩ => rfl
  | ⟨1, _⟩ => rfl

/-- A float sum over the lanes of an `[a, b]` matrix is, at row `p`, the sum over the lane coordinate. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ c : Fin b, src (ix2 p c) :=
  (Ideal.multiReduction_add_single src acc h hφ hacc (ix1 p)).trans
    (Finset.sum_congr rfl fun c _ => congrArg src (lift_ix1 h p c))

/-- A float maximum over the lanes of an `[a, b]` matrix is, at row `p`, the fold of `max` from the accumulator's
    value over the lane coordinate. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  have e : (src ∘ h.lift (ix1 p)) = fun c : Fin b => src (ix2 p c) := funext fun c => congrArg src (lift_ix1 h p c)
  show (Finset.univ : Finset (Fin b)).fold max (Ideal.ofBits φ acc) (src ∘ h.lift (ix1 p)) = _
  rw [e]
  rfl

/-! ## A matrix product with one contracted axis -/

section Matmul
variable {m k n : ℕ} (d : DotDims ⟨2, ![m, k]⟩ ⟨2, ![k, n]⟩ ⟨2, ![m, n]⟩)

private theorem coord_congr {s : Shape} (j : s.Idx) (p q : ℕ) (hp : p < s.rank) (hq : q < s.rank) (e : p = q) :
    (j ⟨p, hp⟩).val = (j ⟨q, hq⟩).val := by subst e; rfl

/-- The left operand's row is the result's row. -/
theorem lhsIdx_row (hlb : d.lhsBatch = []) (hln : d.lhsNonContracting = [0]) (j : (⟨2, ![m, n]⟩ : Shape).Idx) (q : d.contr.Idx) :
    (d.lhsIdx j q 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's column is the result's column. -/
theorem rhsIdx_col (hlb : d.lhsBatch = []) (hrb : d.rhsBatch = []) (hln : d.lhsNonContracting = [0]) (hrn : d.rhsNonContracting = [1])
    (j : (⟨2, ![m, n]⟩ : Shape).Idx) (q : d.contr.Idx) :
    (d.rhsIdx j q 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A `tpu.matmul` of an `[m, k]` by a `[k, n]` matrix, contracting the left operand's columns with the right
    operand's rows, into the zero tile: at `(p, q)` the sum over `c` of `lhs (p, c) * rhs (c, q)`. -/
theorem matmul_zero_ix2_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (hr : d.contr.rank = 1) (hs : d.contr.size ⟨0, by omega⟩ = k)
    (prec : Option ContractPrecision) (lhs : FVec Ideal ⟨2, ![m, k]⟩ φ₁) (rhs : FVec Ideal ⟨2, ![k, n]⟩ φ₂)
    (p : Fin m) (q : Fin n) :
    FloatOps.matmul d prec lhs rhs (constant ⟨2, ![m, n]⟩ .f32 0x00000000#32) (ix2 p q)
      = ∑ c : Fin k, lhs (ix2 p c) * rhs (ix2 c q) := by
  rw [Ideal.matmul_constant_zero_apply, ← Equiv.sum_comp (contrEquiv1 d k hr hs).symm]
  refine Finset.sum_congr rfl fun c _ => ?_
  have hc := contrEquiv1_symm_val d k hr hs c
  have el : d.lhsIdx (ix2 p q) ((contrEquiv1 d k hr hs).symm c) = ix2 p c := funext fun a => Fin.ext (by
    match a with
    | ⟨0, _⟩ => exact lhsIdx_row d hlb hln _ _
    | ⟨1, _⟩ => exact (d.lhsIdx_val_of_single hlc _ _).trans hc)
  have er : d.rhsIdx (ix2 p q) ((contrEquiv1 d k hr hs).symm c) = ix2 c q := funext fun a => Fin.ext (by
    match a with
    | ⟨0, _⟩ => exact (d.rhsIdx_val_of_single hrc _ _).trans hc
    | ⟨1, _⟩ => exact rhsIdx_col d hlb hrb hln hrn _ _)
  rw [el, er]

end Matmul

end Cert.LibIx2

end
-- ==== Proof.AttentionBlock.lean ====
/-
  One grid point of the second kernel: 256 query rows against ALL 8192 key and value rows.

  From the point's input block x (256 × 128), the transposed query weights w (128 × 128), the whole key array kk
  (8192 × 128) and the whole value array vv (8192 × 128) the body forms
    the block's queries      q(p, a)  = ∑ₖ x(p, k) · w(k, a)                         (a product into a zero accumulator),
    its scores               s(p, j)  = ∑ₐ q(p, a) · kk(j, a)                        (rows against rows: no transpose formed),
    each row's maximum       m(p)     = max over the 8192 lanes j of s(p, j), from minus infinity,
    the weights              e(p, j)  = exp (s(p, j) − m(p)),
    each row's sum           l(p)     = ∑ⱼ e(p, j),
  and stores (∑ⱼ e(p, j) · vv(j, d)) / l(p). The row maximum and the row sum are lane reductions kept as columns
  ([256] → [256, 1]) and repeated along the row; the roundings to bf16 on the way into the products are the identity on
  exact values.
-/
import proofs.«116500_j80023830659530_2_alg».proof.Proof.Gen.KernelIdeal.Skeleton
import proofs.«116500_j80023830659530_2_alg».proof.Proof.LibZeroAccDots
import proofs.«116500_j80023830659530_2_alg».proof.Proof.LibIx2
import proofs.«116500_j80023830659530_2_alg».proof.Proof.LibIdeal
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.ValueIdx

/-! ## The mathematics of one block, entry by entry -/

/-- The score of the block's query row `p` against key row `j`. -/
def blockScore (x : Vec Ideal S256x128 .f32) (w : Vec Ideal S128x128 .f32) (kk : Vec Ideal S8192x128 .f32)
    (p : Fin 256) (j : Fin 8192) : EReal :=
  ∑ a : Fin 128, (∑ k : Fin 128, x (ix2 p k) * w (ix2 k a)) * kk (ix2 j a)

/-- The unnormalised softmax weight of key row `j` for the block's query row `p`: the exponential of the score less the
    row's largest score. -/
def blockWeight (x : Vec Ideal S256x128 .f32) (w : Vec Ideal S128x128 .f32) (kk : Vec Ideal S8192x128 .f32)
    (p : Fin 256) (j : Fin 8192) : EReal :=
  Ideal.exp (blockScore x w kk p j - (Finset.univ : Finset (Fin 8192)).fold max ⊥ (fun c => blockScore x w kk p c))

/-! ## The body's intermediate tiles -/

/-- The block's score tile: the query product, then rows against the key rows. -/
def scoreTile (x : Vec Ideal S256x128 .f32) (w : Vec Ideal S128x128 .f32) (kk : Vec Ideal S8192x128 .f32) :
    FVec Ideal S256x8192 .f32 :=
  matmul (φ₂ := .f32) dot_S256x128_S8192x128_S256x8192_1_1_0_0_n_n (some .fp32)
    (matmul dot_S256x128_S128x128_S256x128_1_0_0_1_n_n none (truncf .bf16 x bitsLt_bf16_f32) (truncf .bf16 w bitsLt_bf16_f32)
      (constant S256x128 .f32 0x00000000#32))
    kk (constant S256x8192 .f32 0x00000000#32)

theorem scoreTile_apply (x : Vec Ideal S256x128 .f32) (w : Vec Ideal S128x128 .f32) (kk : Vec Ideal S8192x128 .f32)
    (p : Fin 256) (j : Fin 8192) : scoreTile x w kk (ix2 p j) = blockScore x w kk p j :=
  (Cert.ZeroAccDots.rows_rows dot_S256x128_S8192x128_S256x8192_1_1_0_0_n_n rfl rfl rfl rfl rfl rfl rfl rfl (some .fp32) _ kk p j).trans
    (Finset.sum_congr rfl fun a _ => congrArg (· * kk (ix2 j a))
      (Cert.ZeroAccDots.rows_columns dot_S256x128_S128x128_S256x128_1_0_0_1_n_n rfl rfl rfl rfl rfl rfl rfl rfl none _ _ p a))

/-- A tile's row maxima, kept as a column and repeated along the 8192 lanes. -/
def rowMaxTile (s : FVec Ideal S256x8192 .f32) : FVec Ideal S256x8192 .f32 :=
  broadcastTo S256x8192
    (shapeCast S256x1 (multiReduction .maximumf [1] S256 s 0xFF800000#32 reduces_S256x8192_S256 (.inl rfl) rfl) shapeCasts_S256_S256x1)
    broadcasts_S256x1_S256x8192

theorem rowMaxTile_apply (s : FVec Ideal S256x8192 .f32) (p : Fin 256) (j : Fin 8192) :
    rowMaxTile s (ix2 p j) = (Finset.univ : Finset (Fin 8192)).fold max ⊥ (fun c => s (ix2 p c)) :=
  (Cert.LibIx2.broadcastTo_a1_ab_apply _ broadcasts_S256x1_S256x8192 p j).trans
    ((Cert.LibIx2.shapeCast_a_a1_apply _ shapeCasts_S256_S256x1 p 0).trans
      ((Cert.LibIx2.multiReduction_maximumf_lanes_apply s 0xFF800000#32 reduces_S256x8192_S256 (.inl rfl) rfl p).trans
        (congrArg (fun b => (Finset.univ : Finset (Fin 8192)).fold max b (fun c => s (ix2 p c))) Cert.LibIdeal.ofBits_neg_inf_f32)))

/-- A tile's softmax weights: the exponential of each entry less its row's maximum. -/
def weightTile (s : FVec Ideal S256x8192 .f32) : FVec Ideal S256x8192 .f32 := exp (subf s (rowMaxTile s))

theorem weightTile_apply (s : FVec Ideal S256x8192 .f32) (p : Fin 256) (j : Fin 8192) :
    weightTile s (ix2 p j) = Ideal.exp (s (ix2 p j) - (Finset.univ : Finset (Fin 8192)).fold max ⊥ (fun c => s (ix2 p c))) :=
  congrArg (fun m => Ideal.exp (s (ix2 p j) - m)) (rowMaxTile_apply s p j)

/-- A tile's row sums, kept as a column and repeated along the 128 output lanes. -/
def rowSumTile (e : FVec Ideal S256x8192 .f32) : FVec Ideal S256x128 .f32 :=
  broadcastTo S256x128
    (shapeCast S256x1 (multiReduction .add [1] S256 e 0x00000000#32 reduces_S256x8192_S256 (.inl rfl) rfl) shapeCasts_S256_S256x1)
    broadcasts_S256x1_S256x128

theorem rowSumTile_apply (e : FVec Ideal S256x8192 .f32) (p : Fin 256) (q : Fin 128) :
    rowSumTile e (ix2 p q) = ∑ c : Fin 8192, e (ix2 p c) :=
  (Cert.LibIx2.broadcastTo_a1_ab_apply _ broadcasts_S256x1_S256x128 p q).trans
    ((Cert.LibIx2.shapeCast_a_a1_apply _ shapeCasts_S256_S256x1 p 0).trans
      (Cert.LibIx2.multiReduction_add_lanes_apply e 0x00000000#32 reduces_S256x8192_S256 (.inl rfl) rfl p))

/-! ## The stored value -/

/-- The body's stored value is the weighted sum of the value rows divided by the row sums, over those tiles. -/
theorem stored_eq (x : Vec Ideal S256x128 .f32) (w : Vec Ideal S128x128 .f32) (kk : Vec Ideal S8192x128 .f32)
    (vv : Vec Ideal S8192x128 .bf16) :
    k1_pay1 (F := Ideal) x w kk vv
      = divf (matmul (φ₂ := .bf16) dot_S256x8192_S8192x128_S256x128_1_0_0_1_n_n none
                (truncf .bf16 (weightTile (scoreTile x w kk)) bitsLt_bf16_f32) vv (constant S256x128 .f32 0x00000000#32))
          (rowSumTile (weightTile (scoreTile x w kk))) := by
  unfold k1_pay1 rowSumTile weightTile rowMaxTile scoreTile
  simp only [shapeCast_self]

/-- THE BLOCK at (p, d): the weighted sum of column `d` of the value rows, divided by the sum of the weights. -/
theorem attentionBlock_apply (x : Vec Ideal S256x128 .f32) (w : Vec Ideal S128x128 .f32) (kk : Vec Ideal S8192x128 .f32)
    (vv : Vec Ideal S8192x128 .bf16) (p : Fin 256) (d : Fin 128) :
    k1_pay1 (F := Ideal) x w kk vv (ix2 p d)
      = Ideal.div (∑ j : Fin 8192, blockWeight x w kk p j * vv (ix2 j d)) (∑ j : Fin 8192, blockWeight x w kk p j) := by
  have hw : ∀ j : Fin 8192, weightTile (scoreTile x w kk) (ix2 p j) = blockWeight x w kk p j := fun j => by
    rw [weightTile_apply]
    unfold blockWeight
    rw [scoreTile_apply]
    exact congrArg (fun f => Ideal.exp (blockScore x w kk p j - (Finset.univ : Finset (Fin 8192)).fold max ⊥ f))
      (funext fun c => scoreTile_apply x w kk p c)
  rw [stored_eq]
  show Ideal.div (FloatOps.matmul (φ₂ := .bf16) dot_S256x8192_S8192x128_S256x128_1_0_0_1_n_n none
      (truncf .bf16 (weightTile (scoreTile x w kk)) bitsLt_bf16_f32) vv (constant S256x128 .f32 0x00000000#32) (ix2 p d))
    (rowSumTile (weightTile (scoreTile x w kk)) (ix2 p d)) = _
  rw [rowSumTile_apply,
    Cert.ZeroAccDots.rows_columns dot_S256x8192_S8192x128_S256x128_1_0_0_1_n_n rfl rfl rfl rfl rfl rfl rfl rfl none _ vv p d]
  have e1 : ∀ j : Fin 8192, truncf .bf16 (weightTile (scoreTile x w kk)) bitsLt_bf16_f32 (ix2 p j) * vv (ix2 j d)
      = blockWeight x w kk p j * vv (ix2 j d) := fun j => congrArg (· * vv (ix2 j d)) (hw j)
  rw [Finset.sum_congr rfl fun j _ => e1 j, Finset.sum_congr rfl fun j _ => hw j]

end Cert.KernelIdeal.Blocks

end
-- ==== Proof.AttentionArray.lean ====
/-
  The second kernel over its whole grid: the result array it leaves.

  The grid has 32 points; point t reads rows 256·t … 256·t + 255 of the input, and the transposed query weights, the key
  array and the value array WHOLE, and writes back the same 256 rows of the result. So whatever those four arrays hold
  when the kernel starts — X, Wqᵀ, the keys KK and the values VV — the result ends, at (i, d), as
    (∑ⱼ e(i, j) · VV(j, d)) / ∑ⱼ e(i, j),   e(i, j) = exp (s(i, j) − maxⱼ s(i, j)),   s(i, j) = ∑ₐ (∑ₖ X(i,k) · Wqᵀ(k,a)) · KK(j,a):
  every point's block is the block of that one array, and the 32 blocks of 256 rows tile the 8192 rows (row i lies in
  block i / 256).
-/
import proofs.«116500_j80023830659530_2_alg».proof.Proof.Gen.KernelIdeal.Frame
import proofs.«116500_j80023830659530_2_alg».proof.Proof.AttentionBlock
import Idealize.ShloMosaic.Lib.Pipeline.Value
import Idealize.ShloMosaic.Lib.ValueIdx

set_option maxRecDepth 16384

noncomputable section

open scoped BigOperators

namespace Cert.KernelIdeal.Attend

open Cert.KernelIdeal Cert.KernelIdeal.Gen Cert.KernelIdeal.Blocks Idealize.ShloMosaic Idealize.ShloMosaic.ValueIdx
open Idealize.ShloMosaic.TcCoe Idealize.SL.Sem

/-- The score of query row i against key row j, from the input, the transposed query weights and the key array. -/
def score (X : S8192x128.Idx → EReal) (WqT : S128x128.Idx → EReal) (KK : S8192x128.Idx → EReal) (i j : Fin 8192) : EReal :=
  ∑ a : Fin 128, (∑ k : Fin 128, X (ix2 i k) * WqT (ix2 k a)) * KK (ix2 j a)

/-- The unnormalised softmax weight: the exponential of the score less its row's largest score. -/
def weight (X : S8192x128.Idx → EReal) (WqT : S128x128.Idx → EReal) (KK : S8192x128.Idx → EReal) (i j : Fin 8192) : EReal :=
  Ideal.exp (score X WqT KK i j - (Finset.univ : Finset (Fin 8192)).fold max ⊥ (fun c => score X WqT KK i c))

/-- The result array: the weighted sum of the value rows, divided once by the sum of the weights. -/
def attend (X : S8192x128.Idx → EReal) (WqT : S128x128.Idx → EReal) (KK VV : S8192x128.Idx → EReal) : S8192x128.Idx → EReal :=
  fun i => Ideal.div (∑ j : Fin 8192, weight X WqT KK (i 0) j * VV (ix2 j (i 1))) (∑ j : Fin 8192, weight X WqT KK (i 0) j)

theorem zeroOffsets1 : (![0, 0] : Fin 2 → Nat) = fun _ => 0 := funext fun a => by fin_cases a <;> rfl

/-- Where each window's block sits at grid point t: the input and the result at block row t, the other three whole. -/
theorem blockIndices1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Row p of the input block at point t is row 256·t + p of the input array. -/
theorem inputBlock1_apply (c : Dev nD) (t : Fin cfg1.N) (p : Fin 256) (k : Fin 128) (i : S8192x128.Idx)
    (hi : (i 0).val = t.val * 256 + p.val) :
    iblk1 V c 0 t (ix2 p k) = V c main_arg0 (ix2 (i 0) k) := by
  obtain ⟨e0, e1, -⟩ := blockIndices1 t
  show V c main_arg0 (((cfg1.win 0).blk t).view.emb (ix2 p k)) = V c main_arg0 (ix2 (i 0) k)
  refine congrArg (V c main_arg0) (funext fun a => Fin.ext ?_)
  match a with
  | ⟨0, _⟩ => show win1_0.index t (0 : Fin 2) * 256 + 1 * p.val = (i 0).val; omega
  | ⟨1, _⟩ => show win1_0.index t (1 : Fin 2) * 128 + 1 * k.val = k.val; omega

/-- The query weights' block is the whole (transposed) weight array at every point. -/
theorem queryWeightBlock1_apply (c : Dev nD) (t : Fin cfg1.N) (k a : Fin 128) :
    iblk1 V c 1 t (ix2 k a) = V c main_v0 (ix2 k a) := by
  obtain ⟨-, -, e0, e1, -⟩ := blockIndices1 t
  show V c main_v0 (((cfg1.win 1).blk t).view.emb (ix2 k a)) = V c main_v0 (ix2 k a)
  refine congrArg (V c main_v0) (funext fun b => Fin.ext ?_)
  match b with
  | ⟨0, _⟩ => show win1_1.index t (0 : Fin 2) * 128 + 1 * k.val = k.val; omega
  | ⟨1, _⟩ => show win1_1.index t (1 : Fin 2) * 128 + 1 * a.val = a.val; omega

/-- The keys' block is the whole key array at every point. -/
theorem keyBlock1_apply (c : Dev nD) (t : Fin cfg1.N) (j : Fin 8192) (a : Fin 128) :
    iblk1 V c 2 t (ix2 j a) = V c main_v3_0 (ix2 j a) := by
  obtain ⟨-, -, -, -, e0, e1, -⟩ := blockIndices1 t
  show V c main_v3_0 (((cfg1.win 2).blk t).view.emb (ix2 j a)) = V c main_v3_0 (ix2 j a)
  refine congrArg (V c main_v3_0) (funext fun b => Fin.ext ?_)
  match b with
  | ⟨0, _⟩ => show win1_2.index t (0 : Fin 2) * 8192 + 1 * j.val = j.val; omega
  | ⟨1, _⟩ => show win1_2.index t (1 : Fin 2) * 128 + 1 * a.val = a.val; omega

/-- The values' block is the whole value array at every point. -/
theorem valueBlock1_apply (c : Dev nD) (t : Fin cfg1.N) (j : Fin 8192) (d : Fin 128) :
    iblk1 V c 3 t (ix2 j d) = V c main_v3_1 (ix2 j d) := by
  obtain ⟨-, -, -, -, -, -, e0, e1, -⟩ := blockIndices1 t
  show V c main_v3_1 (((cfg1.win 3).blk t).view.emb (ix2 j d)) = V c main_v3_1 (ix2 j d)
  refine congrArg (V c main_v3_1) (funext fun b => Fin.ext ?_)
  match b with
  | ⟨0, _⟩ => show win1_3.index t (0 : Fin 2) * 8192 + 1 * j.val = j.val; omega
  | ⟨1, _⟩ => show win1_3.index t (1 : Fin 2) * 128 + 1 * d.val = d.val; omega

/-- A block's score is the array's score at the block's row. -/
theorem blockScore_eq (c : Dev nD) (t : Fin cfg1.N) (p : Fin 256) (j : Fin 8192) (i : S8192x128.Idx)
    (hi : (i 0).val = t.val * 256 + p.val) :
    blockScore (iblk1 V c 0 t) (iblk1 V c 1 t) (iblk1 V c 2 t) p j
      = score (V c main_arg0) (V c main_v0) (V c main_v3_0) (i 0) j := by
  unfold blockScore score
  refine Finset.sum_congr rfl fun a _ => ?_
  rw [keyBlock1_apply V c t j a]
  refine congrArg (· * V c main_v3_0 (ix2 j a)) (Finset.sum_congr rfl fun k _ => ?_)
  rw [inputBlock1_apply V c t p k i hi, queryWeightBlock1_apply V c t k a]

/-- A block's weight is the array's weight at the block's row. -/
theorem blockWeight_eq (c : Dev nD) (t : Fin cfg1.N) (p : Fin 256) (j : Fin 8192) (i : S8192x128.Idx)
    (hi : (i 0).val = t.val * 256 + p.val) :
    blockWeight (iblk1 V c 0 t) (iblk1 V c 1 t) (iblk1 V c 2 t) p j
      = weight (V c main_arg0) (V c main_v0) (V c main_v3_0) (i 0) j := by
  unfold blockWeight weight
  rw [blockScore_eq V c t p j i hi]
  exact congrArg (fun f => Ideal.exp (score (V c main_arg0) (V c main_v0) (V c main_v3_0) (i 0) j
      - (Finset.univ : Finset (Fin 8192)).fold max ⊥ f)) (funext fun c' => blockScore_eq V c t p c' i hi)

/-- WHAT POINT t WRITES BACK is block t of the one result array. -/
theorem outFlushed (c : Dev nD) (t : Fin cfg1.N) :
    (dat1 V c).flushed 4 t = ((cfg1.win 4).blk t).view.read (Elt Ideal)
      (attend (V c main_arg0) (V c main_v0) (V c main_v3_0) (V c main_v3_1)) := by
  show (cfg1.win 4).cut (grid1.coords t) ((dat1 V c).after 4 t) = _
  rw [after1_4]
  unfold out1_4
  rw [View.canon_unit_zero zeroOffsets1]
  simp only [View.ld_unit_zero (S := S256x128) zeroOffsets1, View.ld_unit_zero (S := S128x128) zeroOffsets1,
    View.ld_unit_zero (S := S8192x128) zeroOffsets1]
  funext j
  obtain ⟨p, d, rfl⟩ : ∃ (p : Fin 256) (d : Fin 128), j = ix2 p d := ⟨j 0, j 1, eq_ix2 j⟩
  refine (attentionBlock_apply (iblk1 V c 0 t) (iblk1 V c 1 t) (iblk1 V c 2 t) (iblk1 V c 3 t) p d).trans ?_
  obtain ⟨-, -, -, -, -, -, -, -, e0, e1⟩ := blockIndices1 t
  show _ = attend (V c main_arg0) (V c main_v0) (V c main_v3_0) (V c main_v3_1) (((cfg1.win 4).blk t).view.emb (ix2 p d))
  unfold attend
  have h0 : ((((cfg1.win 4).blk t).view.emb (ix2 p d)) 0).val = t.val * 256 + p.val := by
    show win1_4.index t (0 : Fin 2) * 256 + 1 * p.val = _; omega
  have h1 : (((cfg1.win 4).blk t).view.emb (ix2 p d)) 1 = d := Fin.ext (by
    show win1_4.index t (1 : Fin 2) * 128 + 1 * d.val = d.val; omega)
  rw [h1]
  refine congrArg₂ Ideal.div (Finset.sum_congr rfl fun j _ => ?_)
    (Finset.sum_congr rfl fun j _ => blockWeight_eq V c t p j _ h0)
  rw [blockWeight_eq V c t p j _ h0, valueBlock1_apply V c t j d]

/-- An index of the result array is in point t's block iff each coordinate is in the block's range on its axis. -/
theorem mem_outBlock (t : Fin cfg1.N) (i : S8192x128.Idx) :
    i ∈ ((cfg1.win 4).blk t).view.set ↔ ∀ a : Fin 2, win1_4.index t a * S256x128.size a ≤ (i a).val ∧ (i a).val < win1_4.index t a * S256x128.size a + S256x128.size a := by
  show i ∈ ((View.whole main_v4).slice (win1_4.rect t)).set ↔ _
  rw [View.set_slice_whole, Rect.mem_set_unit]
  exact Iff.rfl

/-- Every entry of the result array is written back by some point: row i by point i / 256. -/
theorem outCover (i : S8192x128.Idx) :
    ∃ t : Fin cfg1.N, (cfg1.win 4).flush t = true ∧ i ∈ ((cfg1.win 4).blk t).view.set := by
  have hi0 : (i 0).val < 8192 := (i 0).isLt
  have hi1 : (i 1).val < 128 := (i 1).isLt
  have hN : grid1.N = 32 := N_1
  refine ⟨⟨(i 0).val / 256, by show _ < grid1.N; omega⟩, flush1_4 _, ?_⟩
  rw [mem_outBlock]
  obtain ⟨-, -, -, -, -, -, -, -, e0, e1⟩ := blockIndices1 ⟨(i 0).val / 256, by show _ < grid1.N; omega⟩
  intro a
  match a with
  | ⟨0, _⟩ =>
    show win1_4.index _ (0 : Fin 2) * 256 ≤ (i 0).val ∧ (i 0).val < win1_4.index _ (0 : Fin 2) * 256 + 256
    rw [e0]; show (i 0).val / 256 * 256 ≤ _ ∧ _ < (i 0).val / 256 * 256 + 256; omega
  | ⟨1, _⟩ =>
    show win1_4.index _ (1 : Fin 2) * 128 ≤ (i 1).val ∧ (i 1).val < win1_4.index _ (1 : Fin 2) * 128 + 128
    rw [e1]; omega

/-- THE RESULT ARRAY after the kernel, whatever its four operand arrays are when it starts. -/
theorem outArray (c : Dev nD) :
    (dat1 V c).arrAt 4 cfg1.N = attend (V c main_arg0) (V c main_v0) (V c main_v3_0) (V c main_v3_1) :=
  (dat1 V c).arrAt_eq_of_cover 4 (attend (V c main_arg0) (V c main_v0) (V c main_v3_0) (V c main_v3_1))
    (fun t _ => outFlushed V c t) outCover

end Cert.KernelIdeal.Attend

end
-- ==== Proof.ResultValue.lean ====
/-
  What the result buffer holds at the end, as a function of the four arguments.

  Reading the last boundary's contents at the result buffer backwards through the program: it is the attention kernel's
  output array, a function of the four arrays that kernel starts from — the input (an argument, untouched by what came
  before), the transposed query weights (a host transpose of an argument), and the key and value arrays, which are the
  projection kernel's output arrays, themselves functions of the input and of the other two transposed weights. A transposed
  weight read at (k, a) is the stored weight at (a, k), so each product "input · transposed weight" is the linear layer
  x · Wᵀ of the specification, and the whole is its sum-then-divide arrangement.
-/
import proofs.«116500_j80023830659530_2_alg».proof.Proof.Gen.KernelIdeal.Frame
import proofs.«116500_j80023830659530_2_alg».proof.Proof.ProjectionArrays
import proofs.«116500_j80023830659530_2_alg».proof.Proof.AttentionArray
import proofs.«116500_j80023830659530_2_alg».proof.Proof.AttentionSpec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Result

open Cert.KernelIdeal Cert.KernelIdeal.Gen Cert.KernelIdeal.Arrays Cert.KernelIdeal.Attend
open Idealize.ShloMosaic Idealize.ShloMosaic.TcCoe Idealize.SL.Sem Idealize.ShloMosaic.StableHlo Idealize.ShloMosaic.ValueIdx

/-- A weight matrix transposed on the host. -/
abbrev transposed (w : S128x128.Idx → EReal) : S128x128.Idx → EReal :=
  transpose S128x128 [1, 0] w transposes_S128x128_S128x128_1_0

/-- The transposed matrix at (k, a) is the matrix at (a, k). -/
theorem transposed_apply (w : S128x128.Idx → EReal) (k a : Fin 128) : transposed w (ix2 k a) = w (ix2 a k) :=
  transpose_apply [1, 0] w transposes_S128x128_S128x128_1_0 (ix2 k a) (ix2 a k) (fun b => match b with
    | ⟨0, _⟩ => rfl
    | ⟨1, _⟩ => rfl)

theorem attend_congr {X X' : S8192x128.Idx → EReal} {W W' : S128x128.Idx → EReal} {KK KK' VV VV' : S8192x128.Idx → EReal}
    (hX : X = X') (hW : W = W') (hK : KK = KK') (hV : VV = VV') : attend X W KK VV = attend X' W' KK' VV' := by
  subst hX hW hK hV; rfl

variable (m : (ℓ : Loc nD τ sig) → Buf (Elt Ideal) ℓ) (ρ : Dev nD → PrngReg)

/-! ## After the host transposes -/

theorem first_input (c : Dev nD) : V1 m ρ c main_arg0 = m ((c : Thread nD τ).loc main_arg0) := by
  show StableHlo.after hostOps0 (W0 m ρ c) (Proc.devRef .tc main_arg0) = _
  after_results

theorem first_queryWeights (c : Dev nD) : V1 m ρ c main_v0 = transposed (m ((c : Thread nD τ).loc main_arg1)) := by
  show StableHlo.after hostOps0 (W0 m ρ c) (Proc.devRef .tc main_v0) = _
  after_results

theorem first_keyWeights (c : Dev nD) : V1 m ρ c main_v1 = transposed (m ((c : Thread nD τ).loc main_arg2)) := by
  show StableHlo.after hostOps0 (W0 m ρ c) (Proc.devRef .tc main_v1) = _
  after_results

theorem first_valueWeights (c : Dev nD) : V1 m ρ c main_v2 = transposed (m ((c : Thread nD τ).loc main_arg3)) := by
  show StableHlo.after hostOps0 (W0 m ρ c) (Proc.devRef .tc main_v2) = _
  after_results

/-! ## After the projection kernel -/

theorem second_input (c : Dev nD) : V2 m ρ c main_arg0 = m ((c : Thread nD τ).loc main_arg0) :=
  ((W2_arr m ρ c 0).trans (((dat0 (V1 m ρ) c).arrAt_in 0 rfl _).trans (A_eq0 (V1 m ρ) c 0))).trans (first_input m ρ c)

theorem second_queryWeights (c : Dev nD) : V2 m ρ c main_v0 = transposed (m ((c : Thread nD τ).loc main_arg1)) :=
  (W2_of_ne m ρ c main_v0 (by decide)).trans (first_queryWeights m ρ c)

theorem second_keys (c : Dev nD) :
    V2 m ρ c main_v3_0 = rowsByColumns (m ((c : Thread nD τ).loc main_arg0)) (transposed (m ((c : Thread nD τ).loc main_arg2))) :=
  (W2_arr m ρ c 3).trans ((keyArray (V1 m ρ) c).trans (congrArg₂ rowsByColumns (first_input m ρ c) (first_keyWeights m ρ c)))

theorem second_values (c : Dev nD) :
    V2 m ρ c main_v3_1 = rowsByColumns (m ((c : Thread nD τ).loc main_arg0)) (transposed (m ((c : Thread nD τ).loc main_arg3))) :=
  (W2_arr m ρ c 4).trans ((valueArray (V1 m ρ) c).trans (congrArg₂ rowsByColumns (first_input m ρ c) (first_valueWeights m ρ c)))

/-! ## After the attention kernel -/

/-- The result buffer at the last boundary, through both kernels and the transposes. -/
theorem result_layers (c : Dev nD) :
    W3 m ρ c (Proc.devRef .tc main_v4)
      = attend (m ((c : Thread nD τ).loc main_arg0)) (transposed (m ((c : Thread nD τ).loc main_arg1)))
          (rowsByColumns (m ((c : Thread nD τ).loc main_arg0)) (transposed (m ((c : Thread nD τ).loc main_arg2))))
          (rowsByColumns (m ((c : Thread nD τ).loc main_arg0)) (transposed (m ((c : Thread nD τ).loc main_arg3)))) :=
  (W3_arr m ρ c 4).trans ((outArray (V2 m ρ) c).trans
    (attend_congr (second_input m ρ c) (second_queryWeights m ρ c) (second_keys m ρ c) (second_values m ρ c)))

/-! ## The layers are the specification -/

section Spec
variable (X : S8192x128.Idx → EReal) (Wq Wk Wv : S128x128.Idx → EReal)

/-- Input times a transposed weight matrix is the linear layer x · Wᵀ. -/
theorem rowsByColumns_transposed (W : S128x128.Idx → EReal) (j : Fin 8192) (a : Fin 128) :
    rowsByColumns X (transposed W) (ix2 j a) = Cert.Attention.proj X W j a := by
  unfold rowsByColumns Cert.Attention.proj
  exact Finset.sum_congr rfl fun k _ => congrArg (X (ix2 j k) * ·) (transposed_apply W k a)

theorem score_eq (i j : Fin 8192) :
    score X (transposed Wq) (rowsByColumns X (transposed Wk)) i j = Cert.Attention.score X Wq Wk i j := by
  unfold score Cert.Attention.score
  refine Finset.sum_congr rfl fun a _ => ?_
  rw [rowsByColumns_transposed X Wk j a]
  refine congrArg (· * Cert.Attention.proj X Wk j a) ?_
  unfold Cert.Attention.proj
  exact Finset.sum_congr rfl fun k _ => congrArg (X (ix2 i k) * ·) (transposed_apply Wq k a)

theorem weight_eq (i j : Fin 8192) :
    weight X (transposed Wq) (rowsByColumns X (transposed Wk)) i j = Cert.Attention.weight X Wq Wk i j := by
  unfold weight Cert.Attention.weight Cert.Attention.rowMax
  rw [score_eq X Wq Wk i j]
  exact congrArg (fun f => Ideal.exp (Cert.Attention.score X Wq Wk i j - (Finset.univ : Finset (Fin 8192)).fold max ⊥ f))
    (funext fun c => score_eq X Wq Wk i c)

/-- The program's layers are the specification's sum-then-divide arrangement. -/
theorem attend_eq_spec :
    attend X (transposed Wq) (rowsByColumns X (transposed Wk)) (rowsByColumns X (transposed Wv))
      = Cert.Attention.sumThenDivide X Wq Wk Wv := by
  funext i
  unfold attend Cert.Attention.sumThenDivide Cert.Attention.denom
  refine congrArg₂ Ideal.div (Finset.sum_congr rfl fun j _ => ?_) (Finset.sum_congr rfl fun j _ => weight_eq X Wq Wk (i 0) j)
  rw [weight_eq X Wq Wk (i 0) j, rowsByColumns_transposed X Wv j (i 1)]

end Spec

/-- THE RESULT: the specification's sum-then-divide attention of the four arguments as launched. -/
theorem result_eq (c : Dev nD) :
    W3 m ρ c (Proc.devRef .tc main_v4)
      = Cert.Attention.sumThenDivide (m ((c : Thread nD τ).loc main_arg0)) (m ((c : Thread nD τ).loc main_arg1))
          (m ((c : Thread nD τ).loc main_arg2)) (m ((c : Thread nD τ).loc main_arg3)) :=
  (result_layers m ρ c).trans (attend_eq_spec _ _ _ _)

end Cert.KernelIdeal.Result

end
-- ==== Proof.ReferenceValue.lean ====
/-
  The reference program's result is the specification's divide-then-sum attention.

  Stage by stage, at coordinates: the three linear layers are x · Wᵀ (a product with a transposed weight matrix, the
  transpose read at (k, a) as the stored (a, k)); the score matrix contracts the query row with the transposed key matrix,
  which at (a, j) is the key row j at a; the row maximum is the fold of max over the 8192 columns from minus infinity, and
  a further maximum with minus infinity changes nothing; the row maximum and the row sum are repeated along their rows
  through a column [8192, 1]; the weights are divided by their row sum one by one, and the last product sums the
  normalised weights against the value rows.
-/
import proofs.«116500_j80023830659530_2_alg».proof.Proof.Gen.ReferenceIdeal.Read
import proofs.«116500_j80023830659530_2_alg».proof.Proof.AttentionSpec
import proofs.«116500_j80023830659530_2_alg».proof.Proof.LibIdeal
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.ValueIdx
open Cert.Attention (proj score rowMax weight denom divideThenSum)

variable (x : (⟨S8192x128, .f32⟩ : BufTy).Contents (Elt Ideal)) (wq wk wv : (⟨S128x128, .f32⟩ : BufTy).Contents (Elt Ideal))

/-! ## The linear layers -/

theorem queries_apply (i : Fin 8192) (a : Fin 128) : val_main_v1 (F := Ideal) x wq (ix2 i a) = proj x wq i a := by
  rw [val_main_v1_apply]
  unfold proj
  refine Finset.sum_congr rfl fun k _ => ?_
  rw [val_main_v0_apply]
  have el : lidx_main_v1 (ix2 i a) k = ix2 i k := funext fun b => Fin.ext (by match b with | ⟨0, _⟩ => rfl | ⟨1, _⟩ => rfl)
  have er : idx_main_v0 (ridx_main_v1 (ix2 i a) k) = ix2 a k := funext fun b => Fin.ext (by match b with | ⟨0, _⟩ => rfl | ⟨1, _⟩ => rfl)
  rw [el, er]

theorem keys_apply (j : Fin 8192) (a : Fin 128) : val_main_v3 (F := Ideal) x wk (ix2 j a) = proj x wk j a := by
  rw [val_main_v3_apply]
  unfold proj
  refine Finset.sum_congr rfl fun k _ => ?_
  rw [val_main_v2_apply]
  have el : lidx_main_v3 (ix2 j a) k = ix2 j k := funext fun b => Fin.ext (by match b with | ⟨0, _⟩ => rfl | ⟨1, _⟩ => rfl)
  have er : idx_main_v2 (ridx_main_v3 (ix2 j a) k) = ix2 a k := funext fun b => Fin.ext (by match b with | ⟨0, _⟩ => rfl | ⟨1, _⟩ => rfl)
  rw [el, er]

theorem values_apply (j : Fin 8192) (d : Fin 128) : val_main_v5 (F := Ideal) x wv (ix2 j d) = proj x wv j d := by
  rw [val_main_v5_apply]
  unfold proj
  refine Finset.sum_congr rfl fun k _ => ?_
  rw [val_main_v4_apply]
  have el : lidx_main_v5 (ix2 j d) k = ix2 j k := funext fun b => Fin.ext (by match b with | ⟨0, _⟩ => rfl | ⟨1, _⟩ => rfl)
  have er : idx_main_v4 (ridx_main_v5 (ix2 j d) k) = ix2 d k := funext fun b => Fin.ext (by match b with | ⟨0, _⟩ => rfl | ⟨1, _⟩ => rfl)
  rw [el, er]

/-! ## The scores and their row maximum -/

theorem scores_apply (i j : Fin 8192) : val_main_v7 (F := Ideal) x wq wk (ix2 i j) = score x wq wk i j := by
  rw [val_main_v7_apply]
  unfold score
  refine Finset.sum_congr rfl fun a _ => ?_
  rw [val_main_v6_apply]
  have el : lidx_main_v7 (ix2 i j) a = ix2 i a := funext fun b => Fin.ext (by match b with | ⟨0, _⟩ => rfl | ⟨1, _⟩ => rfl)
  have er : idx_main_v6 (ridx_main_v7 (ix2 i j) a) = ix2 j a := funext fun b => Fin.ext (by match b with | ⟨0, _⟩ => rfl | ⟨1, _⟩ => rfl)
  rw [el, er, queries_apply, keys_apply]

/-- The reduced index i with column j put back is (i, j). -/
theorem lift_row (h : S8192x8192.Reduces [1] S8192) (i : Fin 8192) (j : Fin (S8192x8192.size 1)) :
    h.lift (ix1 i) j = ix2 i (⟨j.val, j.isLt⟩ : Fin 8192) := by
  funext b; apply Fin.ext
  match b with
  | ⟨0, _⟩ => rfl
  | ⟨1, _⟩ => rfl

theorem rowMaxStage_apply (i : Fin 8192) : val_main_v8 (F := Ideal) x wq wk (ix1 i) = rowMax x wq wk i := by
  unfold val_main_v8
  have h : S8192x8192.Reduces [1] S8192 := by decide
  rw [Host.reduce_eq_fold_single FloatOps.maximumf _ _ reducesTo_S8192x8192_S8192_d1 h h_S_]
  unfold rowMax
  have hinit : val_main_cst (F := Ideal) (Shape.Idx.first h_S_) = (⊥ : EReal) := Cert.LibIdeal.ofBits_neg_inf_f32
  rw [hinit]
  have hf : (val_main_v7 (F := Ideal) x wq wk ∘ h.lift (ix1 i)) = fun j : Fin 8192 => score x wq wk i j :=
    funext fun j => (congrArg (val_main_v7 (F := Ideal) x wq wk) (lift_row h i j)).trans (scores_apply x wq wk i _)
  exact congrArg (fun f => Finset.fold max (⊥ : EReal) f (Finset.univ : Finset (Fin 8192))) hf

theorem shift_apply (i j : Fin 8192) : val_main_v12 (F := Ideal) x wq wk (ix2 i j) = rowMax x wq wk i := by
  rw [val_main_v12_apply, val_main_v11_apply, val_main_v10_apply, val_main_v9_apply, val_main_cst_0_apply]
  have e : idx_main_v11 (idx_main_v12 (ix2 i j)) = ix1 i := funext fun b => Fin.ext (by match b with | ⟨0, _⟩ => rfl)
  rw [e, rowMaxStage_apply]
  show max (Ideal.ofBits .f32 0xFF800000#32) (rowMax x wq wk i) = _
  rw [Cert.LibIdeal.ofBits_neg_inf_f32]
  exact max_eq_right bot_le

/-! ## The weights, their row sums, the normalised weights -/

theorem weights_apply (i j : Fin 8192) : val_main_v14 (F := Ideal) x wq wk (ix2 i j) = weight x wq wk i j := by
  rw [val_main_v14_apply, val_main_v13_apply, scores_apply, shift_apply]
  rfl

theorem rowSum_apply (i : Fin 8192) : val_main_v15 (F := Ideal) x wq wk (ix1 i) = denom x wq wk i := by
  rw [val_main_v15_apply, val_main_cst_1_apply]
  show Ideal.ofBits .f32 0x00000000#32 + _ = _
  rw [Ideal.ofBits_zero_f32, zero_add]
  unfold denom
  refine Finset.sum_congr rfl fun j _ => ?_
  have e : idx_main_v15 (ix1 i) j = ix2 i j := funext fun b => Fin.ext (by match b with | ⟨0, _⟩ => rfl | ⟨1, _⟩ => rfl)
  rw [e, weights_apply]

theorem normaliser_apply (i j : Fin 8192) : val_main_v17 (F := Ideal) x wq wk (ix2 i j) = denom x wq wk i := by
  rw [val_main_v17_apply, val_main_v16_apply]
  have e : idx_main_v16 (idx_main_v17 (ix2 i j)) = ix1 i := funext fun b => Fin.ext (by match b with | ⟨0, _⟩ => rfl)
  rw [e, rowSum_apply]

theorem normalised_apply (i j : Fin 8192) :
    val_main_v18 (F := Ideal) x wq wk (ix2 i j) = Ideal.div (weight x wq wk i j) (denom x wq wk i) := by
  rw [val_main_v18_apply, weights_apply, normaliser_apply]
  rfl

/-! ## The result -/

/-- THE REFERENCE'S RESULT is the divide-then-sum attention of its four arguments. -/
theorem result_eq : val_main_v19 (F := Ideal) x wq wk wv = divideThenSum x wq wk wv := by
  funext i
  obtain ⟨p, d, rfl⟩ : ∃ (p : Fin 8192) (d : Fin 128), i = ix2 p d := ⟨i 0, i 1, eq_ix2 i⟩
  rw [val_main_v19_apply]
  unfold divideThenSum
  refine Finset.sum_congr rfl fun j _ => ?_
  have el : lidx_main_v19 (ix2 p d) j = ix2 p j := funext fun b => Fin.ext (by match b with | ⟨0, _⟩ => rfl | ⟨1, _⟩ => rfl)
  have er : ridx_main_v19 (ix2 p d) j = ix2 j d := funext fun b => Fin.ext (by match b with | ⟨0, _⟩ => rfl | ⟨1, _⟩ => rfl)
  rw [el, er, normalised_apply, values_apply]

end Cert.ReferenceIdeal.Stages

end
-- ==== Proof.lean ====
/-
  Single-head attention without scaling — softmax(Q · Kᵀ) · V with Q = x · Wqᵀ, K = x · Wkᵀ, V = x · Wvᵀ over 8192 rows
  of 128 features — computed by two kernels against a plain reference, equal on the extended reals.

  The kernels: one projects the keys and the values, 2048 rows per grid point; the other, 256 query rows per grid point,
  projects its queries, scores them against all 8192 keys, takes each row's maximum m and the weights e = exp (s − m),
  and stores (∑ⱼ e · V) / ∑ⱼ e. The reference normalises first: it stores ∑ⱼ (e / ∑ⱼ e) · V. Every rounding to bf16 on the
  way into a matrix product is the identity on exact values, and a product into a zero accumulator is the plain sum, so
  both programs are the same scores, maxima and weights; they differ only in where the division by the row sum stands.
  A divisor moves across a sum on the extended reals when the terms are real and the divisor a nonzero real, and the
  precondition (every argument entry finite) makes every intermediate real and every row sum positive.

  The kernels' frames are the generated ones; the reference's frame is its generated run with the result dropped; the
  idealization rewrote nothing. The value claim: the kernel program's run names its result buffer's final contents, which
  are read back through both kernels to the specification's sum-then-divide form; the reference's run, read stage by stage,
  is the divide-then-sum form; the law joins them.
-/
import proofs.«116500_j80023830659530_2_alg».proof.Defs
import proofs.«116500_j80023830659530_2_alg».proof.Proof.Gen.Kernel
import proofs.«116500_j80023830659530_2_alg».proof.Proof.Gen.Kernel.Skeleton
import proofs.«116500_j80023830659530_2_alg».proof.Proof.Gen.Kernel.Launch
import proofs.«116500_j80023830659530_2_alg».proof.Proof.Gen.Kernel.Points
import proofs.«116500_j80023830659530_2_alg».proof.Proof.Gen.Kernel.Frame
import proofs.«116500_j80023830659530_2_alg».proof.Proof.Gen.KernelIdeal
import proofs.«116500_j80023830659530_2_alg».proof.Proof.Gen.KernelIdeal.Skeleton
import proofs.«116500_j80023830659530_2_alg».proof.Proof.Gen.KernelIdeal.Launch
import proofs.«116500_j80023830659530_2_alg».proof.Proof.Gen.KernelIdeal.Points
import proofs.«116500_j80023830659530_2_alg».proof.Proof.Gen.KernelIdeal.Frame
import proofs.«116500_j80023830659530_2_alg».proof.Proof.Gen.ReferenceIdeal
import proofs.«116500_j80023830659530_2_alg».proof.Proof.Gen.ReferenceIdeal.Run
import proofs.«116500_j80023830659530_2_alg».proof.Proof.Gen.ReferenceIdeal.Read
import proofs.«116500_j80023830659530_2_alg».proof.Proof.Gen.Pre_finite_inputs
import proofs.«116500_j80023830659530_2_alg».proof.Proof.AttentionSpec
import proofs.«116500_j80023830659530_2_alg».proof.Proof.Finite
import proofs.«116500_j80023830659530_2_alg».proof.Proof.KernelRun
import proofs.«116500_j80023830659530_2_alg».proof.Proof.ResultValue
import proofs.«116500_j80023830659530_2_alg».proof.Proof.ReferenceValue
import Idealize.ShloMosaic.Adequacy
import Idealize.ShloMosaic.Init

noncomputable section

namespace Cert.Proof

open Idealize.ShloMosaic Idealize.SL.Sem

/-- The word-level program terminates, faults nowhere and leaves its arguments as launched. -/
theorem frame_kernel : Cert.frame_Kernel := fun m ρ _ => Cert.Kernel.Gen.frame m ρ

/-- So does the program read on the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments, all of them finite, both programs end with the sum-then-divide
    attention of those arguments in their result: the kernels by construction, the reference because with real entries
    its divide-then-sum form is the same array. -/
theorem algebraic : Cert.algebraic_KernelIdeal_ReferenceIdeal := by
  intro m ρ m' ρ' hpre hagree
  refine ⟨fun c => Cert.Attention.sumThenDivide
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.result_eq m ρ c), (h c).2⟩)
      (Cert.KernelIdeal.Result.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.Stages.result_eq,
      (hagree c).1, (hagree c).2.1, (hagree c).2.2.1, (hagree c).2.2.2]
    obtain ⟨h0, h1, h2, h3⟩ := Cert.Finite.real_of_pre _ _ _ _ (hpre c)
    exact (Cert.Attention.sumThenDivide_eq_divideThenSum h0 h1 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
